-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x16 : Shape := ⟨3, ![64, 4096, 16]⟩
abbrev S128 : Shape := ⟨1, ![128]⟩
abbrev S_ : Shape := ⟨0, ![]⟩

class Facts : Prop where
  bcast_S_S64x4096x16 : S_.BroadcastsInDim S64x4096x16 (![] : Fin 0 → Fin S64x4096x16.rank)
  reducesTo_S64x4096x16_S_d0_1_2 : S64x4096x16.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S64x4096x16 .f32) (main_arg1 : FVec F S128 .f32) (main_arg2 : FVec F S128 .f32) (main_arg3 : FVec F S128 .f32) (main_arg4 : FVec F S128 .f32) (main_arg5 : FVec F S128 .f32) (main_arg6 : FVec F S128 .f32) (main_arg7 : FVec F S128 .f32) (main_arg8 : FVec F S128 .f32) : IVec S_ 1 :=
  let main_v0 : FVec F S64x4096x16 .f32 := Host.absf main_arg0
  let main_cst : FVec F S_ .f32 := constant S_ .f32 0x7F800000#32
  let main_v1 : FVec F S64x4096x16 .f32 := broadcastInDim S64x4096x16 ![] bcast_S_S64x4096x16 main_cst
  let main_v2 : IVec S64x4096x16 1 := cmpf .olt main_v0 main_v1
  let main_c : IVec S_ 1 := constantI S_ 1 1#1
  let main_v3 : IVec S_ 1 := (fun x v => Host.reduce IntOp.andi x v reducesTo_S64x4096x16_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S64x4096x16 : Shape := ⟨3, ![64, 4096, 16]⟩
abbrev S128 : Shape := ⟨1, ![128]⟩
abbrev S262144x16 : Shape := ⟨2, ![262144, 16]⟩
abbrev S262144x512 : Shape := ⟨2, ![262144, 512]⟩
abbrev S2048x16 : Shape := ⟨2, ![2048, 16]⟩
abbrev S2048x512 : Shape := ⟨2, ![2048, 512]⟩
abbrev S2048x1 : Shape := ⟨2, ![2048, 1]⟩
abbrev S1x128 : Shape := ⟨2, ![1, 128]⟩
abbrev S2048x128 : Shape := ⟨2, ![2048, 128]⟩
abbrev S2048x128x1 : Shape := ⟨3, ![2048, 128, 1]⟩
abbrev S2048x128x4 : Shape := ⟨3, ![2048, 128, 4]⟩
abbrev S64x4096x512 : Shape := ⟨3, ![64, 4096, 512]⟩

abbrev nBuf : Space → Nat
  | .hbm => 12
  | .vmem => 12
  | .smem => 0
  | _ => 0

abbrev bufTy : (tb : Table) → Fin (tcTables nBuf tb) → BufTy
  | .hbm, ⟨0, _⟩ => ⟨S64x4096x16, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S262144x16, .f32⟩
  | .hbm, ⟨10, _⟩ => ⟨S262144x512, .f32⟩
  | .hbm, ⟨11, _⟩ => ⟨S64x4096x512, .f32⟩
  | .local _ .vmem, ⟨0, _⟩ => ⟨S2048x16, .f32⟩
  | .local _ .vmem, ⟨1, _⟩ => ⟨S2048x16, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S2048x512, .f32⟩
  | .local _ .vmem, ⟨11, _⟩ => ⟨S2048x512, .f32⟩
  | _, _ => ⟨S64x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x4096x16_S262144x16 : S64x4096x16.ShapeCasts S262144x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  slices_S2048x16_o0_0_S2048x1 : S2048x16.Slices ![0, 0] S2048x1
  slices_S2048x16_o0_5_S2048x1 : S2048x16.Slices ![0, 5] S2048x1
  slices_S2048x16_o0_6_S2048x1 : S2048x16.Slices ![0, 6] S2048x1
  inb_S128_S128_0 : ∀ a, (![0] : Fin 1 → Nat) a + S128.size a ≤ S128.size a
  h_S128 : 0 < S128.numel
  shapeCasts_S128_S1x128 : S128.ShapeCasts S1x128
  broadcasts_S2048x1_S2048x128 : S2048x1.Broadcasts S2048x128
  broadcasts_S1x128_S2048x128 : S1x128.Broadcasts S2048x128
  shapeCasts_S2048x128_S2048x128x1 : S2048x128.ShapeCasts S2048x128x1
  concatenates_S2048x128x1_S2048x128x1_S2048x128x1_S2048x128x1_S2048x128x4_d2 : Shape.Concatenates [S2048x128x1, S2048x128x1, S2048x128x1, S2048x128x1] S2048x128x4 2
  shapeCasts_S2048x128x4_S2048x512 : S2048x128x4.ShapeCasts S2048x512
  inb_S2048x512_S2048x512_0_0 : ∀ a, (![0, 0] : Fin 2 → Nat) a + S2048x512.size a ≤ S2048x512.size a
  h_S2048x512 : 0 < S2048x512.numel
  shapeCasts_S262144x512_S64x4096x512 : S262144x512.ShapeCasts S64x4096x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S262144x16.size a
  hwx0_0 : ∀ i : grid0.Coords, EltTy.bits .f32 = 32 ∨ (Rect.block (s := S262144x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S262144x512.size a
  hwx0_9 : ∀ i : grid0.Coords, EltTy.bits .f32 = 32 ∨ (Rect.block (s := S262144x512) S2048x512.size (cc0_transform_9 i) (hinb0_9 i)).WholeWords (EltTy.packing .f32)

variable [Facts₀]

abbrev win0_0 : Pipeline.Window sig grid0 :=
  Pipeline.Window.ofSpec (Memref.whole main_v0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S2048x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x4096x16 : Shape := ⟨3, ![64, 4096, 16]⟩
abbrev S128 : Shape := ⟨1, ![128]⟩
abbrev S64x4096x1 : Shape := ⟨3, ![64, 4096, 1]⟩
abbrev S64x4096 : Shape := ⟨2, ![64, 4096]⟩
abbrev S1x1x128 : Shape := ⟨3, ![1, 1, 128]⟩
abbrev S64x4096x128 : Shape := ⟨3, ![64, 4096, 128]⟩
abbrev S_ : Shape := ⟨0, ![]⟩
abbrev S64x4096x128x1 : Shape := ⟨4, ![64, 4096, 128, 1]⟩
abbrev S64x4096x128x4 : Shape := ⟨4, ![64, 4096, 128, 4]⟩
abbrev S64x4096x512 : Shape := ⟨3, ![64, 4096, 512]⟩

abbrev nBuf : Space → Nat
  | .hbm => 65
  | .vmem => 0
  | .smem => 0
  | _ => 0

abbrev bufTy : (tb : Table) → Fin (tcTables nBuf tb) → BufTy
  | .hbm, ⟨0, _⟩ => ⟨S64x4096x16, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x4096x1, .f32⟩
  | .hbm, ⟨10, _⟩ => ⟨S64x4096, .f32⟩
  | .hbm, ⟨11, _⟩ => ⟨S64x4096x1, .f32⟩
  | .hbm, ⟨12, _⟩ => ⟨S64x4096, .f32⟩
  | .hbm, ⟨13, _⟩ => ⟨S64x4096x1, .f32⟩
  | .hbm, ⟨14, _⟩ => ⟨S64x4096, .f32⟩
  | .hbm, ⟨15, _⟩ => ⟨S64x4096x1, .f32⟩
  | .hbm, ⟨16, _⟩ => ⟨S1x1x128, .f32⟩
  | .hbm, ⟨17, _⟩ => ⟨S64x4096x128, .f32⟩
  | .hbm, ⟨18, _⟩ => ⟨S64x4096x128, .f32⟩
  | .hbm, ⟨19, _⟩ => ⟨S64x4096x128, .f32⟩
  | .hbm, ⟨20, _⟩ => ⟨S1x1x128, .f32⟩
  | .hbm, ⟨21, _⟩ => ⟨S64x4096x128, .f32⟩
  | .hbm, ⟨22, _⟩ => ⟨S64x4096x128, .f32⟩
  | .hbm, ⟨23, _⟩ => ⟨S_, .f32⟩
  | .hbm, ⟨24, _⟩ => ⟨S64x4096x128, .f32⟩
  | .hbm, ⟨25, _⟩ => ⟨S64x4096x128, .f32⟩
  | .hbm, ⟨26, _⟩ => ⟨S64x4096x1, .f32⟩
  | .hbm, ⟨27, _⟩ => ⟨S1x1x128, .f32⟩
  | .hbm, ⟨28, _⟩ => ⟨S64x4096x128, .f32⟩
  | .hbm, ⟨29, _⟩ => ⟨S64x4096x128, .f32⟩
  | .hbm, ⟨30, _⟩ => ⟨S64x4096x128, .f32⟩
  | .hbm, ⟨31, _⟩ => ⟨S1x1x128, .f32⟩
  | .hbm, ⟨32, _⟩ => ⟨S64x4096x128, .f32⟩
  | .hbm, ⟨33, _⟩ => ⟨S64x4096x128, .f32⟩
  | .hbm, ⟨34, _⟩ => ⟨S_, .f32⟩
  | .hbm, ⟨35, _⟩ => ⟨S64x4096x128, .f32⟩
  | .hbm, ⟨36, _⟩ => ⟨S64x4096x128, .f32⟩
  | .hbm, ⟨37, _⟩ => ⟨S64x4096x1, .f32⟩
  | .hbm, ⟨38, _⟩ => ⟨S1x1x128, .f32⟩
  | .hbm, ⟨39, _⟩ => ⟨S64x4096x128, .f32⟩
  | .hbm, ⟨40, _⟩ => ⟨S64x4096x128, .f32⟩
  | .hbm, ⟨41, _⟩ => ⟨S64x4096x128, .f32⟩
  | .hbm, ⟨42, _⟩ => ⟨S1x1x128, .f32⟩
  | .hbm, ⟨43, _⟩ => ⟨S64x4096x128, .f32⟩
  | .hbm, ⟨44, _⟩ => ⟨S64x4096x128, .f32⟩
  | .hbm, ⟨45, _⟩ => ⟨S_, .f32⟩
  | .hbm, ⟨46, _⟩ => ⟨S64x4096x128, .f32⟩
  | .hbm, ⟨47, _⟩ => ⟨S64x4096x128, .f32⟩
  | .hbm, ⟨48, _⟩ => ⟨S64x4096x1, .f32⟩
  | .hbm, ⟨49, _⟩ => ⟨S1x1x128, .f32⟩
  | .hbm, ⟨50, _⟩ => ⟨S64x4096x128, .f32⟩
  | .hbm, ⟨51, _⟩ => ⟨S64x4096x128, .f32⟩
  | .hbm, ⟨52, _⟩ => ⟨S64x4096x128, .f32⟩
  | .hbm, ⟨53, _⟩ => ⟨S1x1x128, .f32⟩
  | .hbm, ⟨54, _⟩ => ⟨S64x4096x128, .f32⟩
  | .hbm, ⟨55, _⟩ => ⟨S64x4096x128, .f32⟩
  | .hbm, ⟨56, _⟩ => ⟨S_, .f32⟩
  | .hbm, ⟨57, _⟩ => ⟨S64x4096x128, .f32⟩
  | .hbm, ⟨58, _⟩ => ⟨S64x4096x128, .f32⟩
  | .hbm, ⟨59, _⟩ => ⟨S64x4096x128x1, .f32⟩
  | .hbm, ⟨60, _⟩ => ⟨S64x4096x128x1, .f32⟩
  | .hbm, ⟨61, _⟩ => ⟨S64x4096x128x1, .f32⟩
  | .hbm, ⟨62, _⟩ => ⟨S64x4096x128x1, .f32⟩
  | .hbm, ⟨63, _⟩ => ⟨S64x4096x128x4, .f32⟩
  | .hbm, ⟨64, _⟩ => ⟨S64x4096x512, .f32⟩
  | _, _ => ⟨S64x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call2_cst : Ref sig .tc := ⟨.hbm, 45, rfl⟩
abbrev main_call2_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call3_cst : Ref sig .tc := ⟨.hbm, 56, rfl⟩
abbrev main_call3_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  slices_S64x4096x16_S64x4096x1_0_0_0 : S64x4096x16.Slices ![0, 0, 0] S64x4096x1
  shapeCasts_S64x4096x1_S64x4096 : S64x4096x1.ShapeCasts S64x4096
  slices_S64x4096x16_S64x4096x1_0_0_5 : S64x4096x16.Slices ![0, 0, 5] S64x4096x1
  slices_S64x4096x16_S64x4096x1_0_0_6 : S64x4096x16.Slices ![0, 0, 6] S64x4096x1
  bcast_S64x4096_S64x4096x1_0_1 : S64x4096.BroadcastsInDim S64x4096x1 (![0, 1] : Fin 2 → Fin S64x4096x1.rank)
  bcast_S128_S1x1x128_2 : S128.BroadcastsInDim S1x1x128 (![2] : Fin 1 → Fin S1x1x128.rank)
  bcast_S64x4096x1_S64x4096x128_0_1_2 : S64x4096x1.BroadcastsInDim S64x4096x128 (![0, 1, 2] : Fin 3 → Fin S64x4096x128.rank)
  bcast_S1x1x128_S64x4096x128_0_1_2 : S1x1x128.BroadcastsInDim S64x4096x128 (![0, 1, 2] : Fin 3 → Fin S64x4096x128.rank)
  bcast_S_S64x4096x128 : S_.BroadcastsInDim S64x4096x128 (![] : Fin 0 → Fin S64x4096x128.rank)
  bcast_S64x4096x128_S64x4096x128x1_0_1_2 : S64x4096x128.BroadcastsInDim S64x4096x128x1 (![0, 1, 2] : Fin 3 → Fin S64x4096x128x1.rank)
  concatenates_S64x4096x128x1_S64x4096x128x1_S64x4096x128x1_S64x4096x128x1_S64x4096x128x4_d3 : Shape.Concatenates [S64x4096x128x1, S64x4096x128x1, S64x4096x128x1, S64x4096x128x1] S64x4096x128x4 3
  shapeCasts_S64x4096x128x4_S64x4096x512 : S64x4096x128x4.ShapeCasts S64x4096x512

variable [Facts₀]

class Facts : Prop extends Facts₀ where

variable [Facts]
-- ==== Proof.Spec.lean ====
import Idealize.ShloMosaic.Lib.ValueIdx
import Idealize.ShloMosaic.Lib.Pipeline.Value

/-! # Four one-input linear layers with a rectifier, interleaved feature by feature

Every input row holds sixteen numbers. Three of them (columns 0, 5 and 6) are each sent through a linear layer with ONE
input and 128 outputs followed by a rectifier: feature d of a layer with weights w and biases b applied to the scalar s
is max (s · w d + b d) 0. Column 6 goes through two layers (the "pot" and the "odds" layers), columns 5 and 0 through
one each ("call", "stack"). The four 128-vectors are then interleaved feature by feature: output channel 4 d + j of
the row is feature d of layer j, the layers in the order pot, call, stack, odds. So a row of 16 numbers becomes a row
of 512 numbers, and different rows never meet.

Nothing here uses a law of the arithmetic: the value of a channel is one fixed expression of one input entry, one
weight and one bias. It is therefore stated for any interpretation of the float operations, and two programs that
differ only in how they lay the rows and channels out in memory compute it alike. -/

noncomputable section

namespace Cert.Interleave

open Idealize.ShloMosaic Idealize.ShloMosaic.ValueIdx

variable {F : FTy → Type} [FloatOps F]

/-- One feature of one layer: the rectifier of scalar times weight plus bias. The zero is the f32 word of +0. -/
def cell (s w b : F .f32) : F .f32 :=
  FloatOps.maximumf (FloatOps.addf (FloatOps.mulf s w) b) (FloatOps.ofBits .f32 0x00000000#32)

/-- The weights and biases of the four layers, each a vector of 128 numbers. -/
structure Layers (F : FTy → Type) where
  stackW : (⟨1, ![128]⟩ : Shape).Idx → F .f32
  stackB : (⟨1, ![128]⟩ : Shape).Idx → F .f32
  callW : (⟨1, ![128]⟩ : Shape).Idx → F .f32
  callB : (⟨1, ![128]⟩ : Shape).Idx → F .f32
  oddsW : (⟨1, ![128]⟩ : Shape).Idx → F .f32
  oddsB : (⟨1, ![128]⟩ : Shape).Idx → F .f32
  potW : (⟨1, ![128]⟩ : Shape).Idx → F .f32
  potB : (⟨1, ![128]⟩ : Shape).Idx → F .f32

/-- Feature d of layer j on one input row: j = 0 the pot layer on column 6, j = 1 the call layer on column 5, j = 2
    the stack layer on column 0, any other j the odds layer on column 6. -/
def feature (row : Fin 16 → F .f32) (L : Layers F) (d : Fin 128) : Nat → F .f32
  | 0 => cell (row 6) (L.potW (ix1 d)) (L.potB (ix1 d))
  | 1 => cell (row 5) (L.callW (ix1 d)) (L.callB (ix1 d))
  | 2 => cell (row 0) (L.stackW (ix1 d)) (L.stackB (ix1 d))
  | _ => cell (row 6) (L.oddsW (ix1 d)) (L.oddsB (ix1 d))

/-- Channel ch of a row: feature ch / 4 of layer ch % 4. -/
def channel (row : Fin 16 → F .f32) (L : Layers F) (ch : Fin 512) : F .f32 :=
  feature row L ⟨ch.val / 4, by have := ch.isLt; omega⟩ (ch.val % 4)

/-- The map on a table of N rows: row n of the result is the 512 channels of row n of the input. -/
def rows {N : Nat} (x : (⟨2, ![N, 16]⟩ : Shape).Idx → F .f32) (L : Layers F) :
    (⟨2, ![N, 512]⟩ : Shape).Idx → F .f32 := fun i =>
  channel (fun col => x (ix2 (⟨(i 0).val, (i 0).isLt⟩ : Fin N) col)) L ⟨(i 1).val, (i 1).isLt⟩

/-- The same map on a batch of 64 tables of 4096 rows. -/
def batch (x : (⟨3, ![64, 4096, 16]⟩ : Shape).Idx → F .f32) (L : Layers F) :
    (⟨3, ![64, 4096, 512]⟩ : Shape).Idx → F .f32 := fun i =>
  channel (fun col => x (ix3 (⟨(i 0).val, (i 0).isLt⟩ : Fin 64) (⟨(i 1).val, (i 1).isLt⟩ : Fin 4096) col)) L
    ⟨(i 2).val, (i 2).isLt⟩

theorem rows_ix2 {N : Nat} (x : (⟨2, ![N, 16]⟩ : Shape).Idx → F .f32) (L : Layers F) (n : Fin N) (ch : Fin 512) :
    rows x L (ix2 n ch) = channel (fun col => x (ix2 n col)) L ch := rfl

theorem batch_ix3 (x : (⟨3, ![64, 4096, 16]⟩ : Shape).Idx → F .f32) (L : Layers F) (b : Fin 64) (r : Fin 4096)
    (ch : Fin 512) : batch x L (ix3 b r ch) = channel (fun col => x (ix3 b r col)) L ch := rfl

/-- The map acts on each row by itself: where row (j 0) of a table x is row (i 0) of a table X, channel (j 1) of that
    row of the mapped x is the same channel of row (i 0) of the mapped X. (A block of rows, mapped, is the block of
    the mapped table.) -/
theorem rows_congr {N M : Nat} (x : (⟨2, ![N, 16]⟩ : Shape).Idx → F .f32) (X : (⟨2, ![M, 16]⟩ : Shape).Idx → F .f32)
    (L : Layers F) (j : (⟨2, ![N, 512]⟩ : Shape).Idx) (i : (⟨2, ![M, 512]⟩ : Shape).Idx)
    (hrow : ∀ col : Fin 16, x (ix2 (⟨(j 0).val, (j 0).isLt⟩ : Fin N) col) = X (ix2 (⟨(i 0).val, (i 0).isLt⟩ : Fin M) col))
    (hch : (j 1).val = (i 1).val) : rows x L j = rows X L i := by
  unfold rows
  rw [show (fun col => x (ix2 (⟨(j 0).val, (j 0).isLt⟩ : Fin N) col))
      = fun col => X (ix2 (⟨(i 0).val, (i 0).isLt⟩ : Fin M) col) from funext hrow]
  exact congrArg (channel _ L) (Fin.ext hch)

/-- Flattening commutes with the map: the batch of 64 × 4096 rows read as one table of 262144 rows (row b · 4096 + r
    of the table is row r of table b), mapped row by row, and read as a batch again, is the batch mapped. -/
theorem batch_eq_rows (x : (⟨3, ![64, 4096, 16]⟩ : Shape).Idx → F .f32) (L : Layers F)
    (hin : (⟨3, ![64, 4096, 16]⟩ : Shape).ShapeCasts ⟨2, ![262144, 16]⟩)
    (hout : (⟨2, ![262144, 512]⟩ : Shape).ShapeCasts ⟨3, ![64, 4096, 512]⟩) :
    shapeCast ⟨3, ![64, 4096, 512]⟩ (rows (shapeCast ⟨2, ![262144, 16]⟩ x hin) L) hout = batch x L := by
  funext i
  obtain ⟨b, r, ch, rfl⟩ : ∃ (b : Fin 64) (r : Fin 4096) (ch : Fin 512), i = ix3 b r ch := ⟨i 0, i 1, i 2, eq_ix3 i⟩
  have hn : b.val * 4096 + r.val < 262144 := by have := b.isLt; have := r.isLt; omega
  refine (shapeCast_apply _ hout (ix3 b r ch) (ix2 (⟨b.val * 4096 + r.val, hn⟩ : Fin 262144) ch) ?_).trans ?_
  · rw [Shape.rowMajor_val_two, Shape.rowMajor_val_three]
    show (b.val * 4096 + r.val) * 512 + ch.val = (b.val * 4096 + r.val) * 512 + ch.val
    rfl
  · rw [rows_ix2, batch_ix3]
    refine congrArg (fun row => channel row L ch) (funext fun col => ?_)
    refine shapeCast_apply x hin (ix2 (⟨b.val * 4096 + r.val, hn⟩ : Fin 262144) col) (ix3 b r col) ?_
    rw [Shape.rowMajor_val_two, Shape.rowMajor_val_three]
    show (b.val * 4096 + r.val) * 16 + col.val = (b.val * 4096 + r.val) * 16 + col.val
    rfl

end Cert.Interleave

end
-- ==== Proof.Reference.lean ====
import proofs.«182191_j30786325577969_1_alg».proof.Proof.Gen.ReferenceIdeal.Read
import proofs.«182191_j30786325577969_1_alg».proof.Proof.Spec

/-! # The reference program computes the interleaved layers

The reference works on the batch of 64 × 4096 rows directly. For each layer it cuts the layer's column out of the
input, drops the cut axis, and puts a unit axis and then the 128 features back by broadcasts; it broadcasts the
weights and the biases over the batch; it multiplies, adds and takes the maximum with zero. Read at batch b, row r and
feature d, all of that is one cell: the rectifier of (input entry at (b, r, column)) · (weight d) + (bias d). It then
gives each layer's result a trailing unit axis, joins the four along that axis in the order pot, call, stack, odds —
entry (b, r, d, j) of the join is feature d of layer j — and flattens the last two axes, so that channel c of a row
is entry (c / 4, c % 4) of the join. -/

noncomputable section

namespace Cert.RefValue

open Cert.ReferenceIdeal Cert.ReferenceIdeal.Read Cert.Interleave Idealize.ShloMosaic Idealize.ShloMosaic.ValueIdx

variable {F : FTy → Type} [FloatOps F]

/-- The stack layer (column 0, weights and biases the first pair of vectors) at batch b, row r, feature d. -/
theorem stack_at (x0 : (⟨S64x4096x16, .f32⟩ : BufTy).Contents (Elt F)) (x1 x2 : (⟨S128, .f32⟩ : BufTy).Contents (Elt F))
    (b : Fin 64) (r : Fin 4096) (d : Fin 128) :
    val_main_v14 (F := F) x0 x1 x2 (ix3 b r d) = cell (x0 (ix3 b r (0 : Fin 16))) (x1 (ix1 d)) (x2 (ix1 d)) := by
  rw [val_main_v14_apply, val_main_v13_apply, val_main_v10_apply, val_main_v12_apply, val_main_v8_apply,
    val_main_v9_apply, val_main_v6_apply, val_main_v7_apply, val_main_v11_apply, val_main_v1_apply,
    val_main_v0_apply, val_main_call0_v0_apply, val_main_call0_cst_apply]
  have e0 : idx_main_v0 (idx_main_v1 (idx_main_v6 (idx_main_v8 (ix3 b r d)))) = ix3 b r (0 : Fin 16) := by
    funext a
    match a with
    | ⟨0, _⟩ => exact Fin.ext (by show (b.val * 4096 + r.val) / 4096 = b.val; have := r.isLt; omega)
    | ⟨1, _⟩ => exact Fin.ext (by show (b.val * 4096 + r.val) / 1 % 4096 = r.val; have := r.isLt; omega)
    | ⟨2, _⟩ => rfl
  have e1 : idx_main_v7 (idx_main_v9 (ix3 b r d)) = ix1 d := by
    funext a; match a with | ⟨0, _⟩ => rfl
  have e2 : idx_main_v11 (idx_main_v12 (ix3 b r d)) = ix1 d := by
    funext a; match a with | ⟨0, _⟩ => rfl
  rw [e0, e1, e2]
  rfl

/-- The call layer (column 5) at batch b, row r, feature d. -/
theorem call_at (x0 : (⟨S64x4096x16, .f32⟩ : BufTy).Contents (Elt F)) (x3 x4 : (⟨S128, .f32⟩ : BufTy).Contents (Elt F))
    (b : Fin 64) (r : Fin 4096) (d : Fin 128) :
    val_main_v23 (F := F) x0 x3 x4 (ix3 b r d) = cell (x0 (ix3 b r (5 : Fin 16))) (x3 (ix1 d)) (x4 (ix1 d)) := by
  rw [val_main_v23_apply, val_main_v22_apply, val_main_v19_apply, val_main_v21_apply, val_main_v17_apply,
    val_main_v18_apply, val_main_v15_apply, val_main_v16_apply, val_main_v20_apply, val_main_v3_apply,
    val_main_v2_apply, val_main_call1_v0_apply, val_main_call1_cst_apply]
  have e0 : idx_main_v2 (idx_main_v3 (idx_main_v15 (idx_main_v17 (ix3 b r d)))) = ix3 b r (5 : Fin 16) := by
    funext a
    match a with
    | ⟨0, _⟩ => exact Fin.ext (by show (b.val * 4096 + r.val) / 4096 = b.val; have := r.isLt; omega)
    | ⟨1, _⟩ => exact Fin.ext (by show (b.val * 4096 + r.val) / 1 % 4096 = r.val; have := r.isLt; omega)
    | ⟨2, _⟩ => rfl
  have e1 : idx_main_v16 (idx_main_v18 (ix3 b r d)) = ix1 d := by
    funext a; match a with | ⟨0, _⟩ => rfl
  have e2 : idx_main_v20 (idx_main_v21 (ix3 b r d)) = ix1 d := by
    funext a; match a with | ⟨0, _⟩ => rfl
  rw [e0, e1, e2]
  rfl

/-- The odds layer (column 6) at batch b, row r, feature d. -/
theorem odds_at (x0 : (⟨S64x4096x16, .f32⟩ : BufTy).Contents (Elt F)) (x5 x6 : (⟨S128, .f32⟩ : BufTy).Contents (Elt F))
    (b : Fin 64) (r : Fin 4096) (d : Fin 128) :
    val_main_v32 (F := F) x0 x5 x6 (ix3 b r d) = cell (x0 (ix3 b r (6 : Fin 16))) (x5 (ix1 d)) (x6 (ix1 d)) := by
  rw [val_main_v32_apply, val_main_v31_apply, val_main_v28_apply, val_main_v30_apply, val_main_v26_apply,
    val_main_v27_apply, val_main_v24_apply, val_main_v25_apply, val_main_v29_apply, val_main_v5_apply,
    val_main_v4_apply, val_main_call2_v0_apply, val_main_call2_cst_apply]
  have e0 : idx_main_v4 (idx_main_v5 (idx_main_v24 (idx_main_v26 (ix3 b r d)))) = ix3 b r (6 : Fin 16) := by
    funext a
    match a with
    | ⟨0, _⟩ => exact Fin.ext (by show (b.val * 4096 + r.val) / 4096 = b.val; have := r.isLt; omega)
    | ⟨1, _⟩ => exact Fin.ext (by show (b.val * 4096 + r.val) / 1 % 4096 = r.val; have := r.isLt; omega)
    | ⟨2, _⟩ => rfl
  have e1 : idx_main_v25 (idx_main_v27 (ix3 b r d)) = ix1 d := by
    funext a; match a with | ⟨0, _⟩ => rfl
  have e2 : idx_main_v29 (idx_main_v30 (ix3 b r d)) = ix1 d := by
    funext a; match a with | ⟨0, _⟩ => rfl
  rw [e0, e1, e2]
  rfl

/-- The pot layer (column 6 again, its own weights) at batch b, row r, feature d. -/
theorem pot_at (x0 : (⟨S64x4096x16, .f32⟩ : BufTy).Contents (Elt F)) (x7 x8 : (⟨S128, .f32⟩ : BufTy).Contents (Elt F))
    (b : Fin 64) (r : Fin 4096) (d : Fin 128) :
    val_main_v41 (F := F) x0 x7 x8 (ix3 b r d) = cell (x0 (ix3 b r (6 : Fin 16))) (x7 (ix1 d)) (x8 (ix1 d)) := by
  rw [val_main_v41_apply, val_main_v40_apply, val_main_v37_apply, val_main_v39_apply, val_main_v35_apply,
    val_main_v36_apply, val_main_v33_apply, val_main_v34_apply, val_main_v38_apply, val_main_v5_apply,
    val_main_v4_apply, val_main_call3_v0_apply, val_main_call3_cst_apply]
  have e0 : idx_main_v4 (idx_main_v5 (idx_main_v33 (idx_main_v35 (ix3 b r d)))) = ix3 b r (6 : Fin 16) := by
    funext a
    match a with
    | ⟨0, _⟩ => exact Fin.ext (by show (b.val * 4096 + r.val) / 4096 = b.val; have := r.isLt; omega)
    | ⟨1, _⟩ => exact Fin.ext (by show (b.val * 4096 + r.val) / 1 % 4096 = r.val; have := r.isLt; omega)
    | ⟨2, _⟩ => rfl
  have e1 : idx_main_v34 (idx_main_v36 (ix3 b r d)) = ix1 d := by
    funext a; match a with | ⟨0, _⟩ => rfl
  have e2 : idx_main_v38 (idx_main_v39 (ix3 b r d)) = ix1 d := by
    funext a; match a with | ⟨0, _⟩ => rfl
  rw [e0, e1, e2]
  rfl

/-- The join of the four layers along a new last axis, read through the flattening of the last two axes: channel c
    of row (b, r) is entry (b, r, c / 4, c % 4) of the join, and entry (b, r, d, j) of the join is feature d of layer j
    (the pieces are one wide, so the coordinate on the joined axis IS the piece's number). -/
theorem reference_eq (x0 : (⟨S64x4096x16, .f32⟩ : BufTy).Contents (Elt F))
    (x1 x2 x3 x4 x5 x6 x7 x8 : (⟨S128, .f32⟩ : BufTy).Contents (Elt F)) :
    val_main_v47 (F := F) x0 x1 x2 x3 x4 x5 x6 x7 x8 = batch x0 ⟨x1, x2, x3, x4, x5, x6, x7, x8⟩ := by
  funext i
  obtain ⟨b, r, ch, rfl⟩ : ∃ (b : Fin 64) (r : Fin 4096) (ch : Fin 512), i = ix3 b r ch := ⟨i 0, i 1, i 2, eq_ix3 i⟩
  rw [val_main_v47_apply, batch_ix3]
  have hb := b.isLt
  have hr := r.isLt
  have hc := ch.isLt
  have hd : ch.val / 4 < 128 := by omega
  -- the flattened position (b · 4096 + r) · 512 + c, cut again into four coordinates, is (b, r, c / 4, c % 4)
  have hi : ∀ (p : Fin 4), p.cast (rfl : S64x4096x128x1.rank = S64x4096x128x4.rank) ≠ (3 : Fin 4) →
      ((ix4 b r (⟨ch.val / 4, hd⟩ : Fin 128) (0 : Fin 1) : S64x4096x128x1.Idx) p).val
        = ((idx_main_v47 (ix3 b r ch)) (p.cast (rfl : S64x4096x128x1.rank = S64x4096x128x4.rank))).val := by
    intro p hp
    match p with
    | ⟨0, _⟩ => show b.val = ((b.val * 4096 + r.val) * 512 + ch.val) / 2097152; omega
    | ⟨1, _⟩ => show r.val = ((b.val * 4096 + r.val) * 512 + ch.val) / 512 % 4096; omega
    | ⟨2, _⟩ => show ch.val / 4 = ((b.val * 4096 + r.val) * 512 + ch.val) / 4 % 128; omega
    | ⟨3, _⟩ => exact absurd rfl hp
  have hlast : ((idx_main_v47 (ix3 b r ch)) (3 : Fin 4)).val = ch.val % 4 := by
    show ((b.val * 4096 + r.val) * 512 + ch.val) % 4 = ch.val % 4; omega
  unfold val_main_v46 channel
  have h4 : ch.val % 4 = 0 ∨ ch.val % 4 = 1 ∨ ch.val % 4 = 2 ∨ ch.val % 4 = 3 := by omega
  rcases h4 with h | h | h | h
  · refine (concatenate_apply_piece _ _ _ (idx_main_v47 (ix3 b r ch)) 0 ?_ S64x4096x128x1
      (val_main_v42 (F := F) x0 x7 x8) rfl rfl 0 rfl (ix4 b r (⟨ch.val / 4, hd⟩ : Fin 128) (0 : Fin 1)) hi ?_).trans ?_
    · show (0 : Nat) < 4; omega
    · show 0 + 0 = ((idx_main_v47 (ix3 b r ch)) (3 : Fin 4)).val
      rw [hlast, h]
    · rw [val_main_v42_apply, h]
      have e : idx_main_v42 (ix4 b r (⟨ch.val / 4, hd⟩ : Fin 128) (0 : Fin 1)) = ix3 b r (⟨ch.val / 4, hd⟩ : Fin 128) := by
        funext a
        match a with
        | ⟨0, _⟩ => rfl
        | ⟨1, _⟩ => rfl
        | ⟨2, _⟩ => rfl
      rw [e]
      exact pot_at x0 x7 x8 b r ⟨ch.val / 4, hd⟩
  · refine (concatenate_apply_piece _ _ _ (idx_main_v47 (ix3 b r ch)) 1 ?_ S64x4096x128x1
      (val_main_v43 (F := F) x0 x3 x4) rfl rfl 1 rfl (ix4 b r (⟨ch.val / 4, hd⟩ : Fin 128) (0 : Fin 1)) hi ?_).trans ?_
    · show (1 : Nat) < 4; omega
    · show 1 + 0 = ((idx_main_v47 (ix3 b r ch)) (3 : Fin 4)).val
      rw [hlast, h]
    · rw [val_main_v43_apply, h]
      have e : idx_main_v43 (ix4 b r (⟨ch.val / 4, hd⟩ : Fin 128) (0 : Fin 1)) = ix3 b r (⟨ch.val / 4, hd⟩ : Fin 128) := by
        funext a
        match a with
        | ⟨0, _⟩ => rfl
        | ⟨1, _⟩ => rfl
        | ⟨2, _⟩ => rfl
      rw [e]
      exact call_at x0 x3 x4 b r ⟨ch.val / 4, hd⟩
  · refine (concatenate_apply_piece _ _ _ (idx_main_v47 (ix3 b r ch)) 2 ?_ S64x4096x128x1
      (val_main_v44 (F := F) x0 x1 x2) rfl rfl 2 rfl (ix4 b r (⟨ch.val / 4, hd⟩ : Fin 128) (0 : Fin 1)) hi ?_).trans ?_
    · show (2 : Nat) < 4; omega
    · show 2 + 0 = ((idx_main_v47 (ix3 b r ch)) (3 : Fin 4)).val
      rw [hlast, h]
    · rw [val_main_v44_apply, h]
      have e : idx_main_v44 (ix4 b r (⟨ch.val / 4, hd⟩ : Fin 128) (0 : Fin 1)) = ix3 b r (⟨ch.val / 4, hd⟩ : Fin 128) := by
        funext a
        match a with
        | ⟨0, _⟩ => rfl
        | ⟨1, _⟩ => rfl
        | ⟨2, _⟩ => rfl
      rw [e]
      exact stack_at x0 x1 x2 b r ⟨ch.val / 4, hd⟩
  · refine (concatenate_apply_piece _ _ _ (idx_main_v47 (ix3 b r ch)) 3 ?_ S64x4096x128x1
      (val_main_v45 (F := F) x0 x5 x6) rfl rfl 3 rfl (ix4 b r (⟨ch.val / 4, hd⟩ : Fin 128) (0 : Fin 1)) hi ?_).trans ?_
    · show (3 : Nat) < 4; omega
    · show 3 + 0 = ((idx_main_v47 (ix3 b r ch)) (3 : Fin 4)).val
      rw [hlast, h]
    · rw [val_main_v45_apply, h]
      have e : idx_main_v45 (ix4 b r (⟨ch.val / 4, hd⟩ : Fin 128) (0 : Fin 1)) = ix3 b r (⟨ch.val / 4, hd⟩ : Fin 128) := by
        funext a
        match a with
        | ⟨0, _⟩ => rfl
        | ⟨1, _⟩ => rfl
        | ⟨2, _⟩ => rfl
      rw [e]
      exact odds_at x0 x5 x6 b r ⟨ch.val / 4, hd⟩

end Cert.RefValue

end
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.Payload.lean ====
import proofs.«182191_j30786325577969_1_alg».proof.Proof.Gen.KernelIdeal.Skeleton
import proofs.«182191_j30786325577969_1_alg».proof.Proof.Spec
import proofs.«182191_j30786325577969_1_alg».proof.Proof.LibColumnBroadcast
import Idealize.ShloMosaic.Lib.ValueLayout

/-! # One block of the kernel computes the interleaved layers of its 2048 rows

The kernel body works on a block of 2048 input rows. It cuts a column out of the block as a 2048 × 1 array and
repeats it along 128 features; it reads each weight or bias vector as one row of 128 numbers and repeats it along the
2048 rows; so at row r and feature d the product-plus-bias-and-maximum is one cell of (input entry (r, column)),
(weight d), (bias d). Each layer's 2048 × 128 result gets a trailing unit axis, the four are joined along it in the
order pot, call, stack, odds, and the last two axes are flattened: channel c of row r is entry (r, c / 4, c % 4) of the
join, that is feature c / 4 of layer c % 4. The pot layer's sum and maximum are taken in the body's last stretch, its
product and its repeated bias in the first; the other three layers are finished in the first stretch. -/

noncomputable section

namespace Cert.KernelValue

open Cert.KernelIdeal Cert.KernelIdeal.Gen Cert.Interleave Idealize.ShloMosaic Idealize.ShloMosaic.ValueIdx

variable {F : FTy → Type} [FloatOps F]

theorem cell_congr {s s' w w' b b' : F .f32} (hs : s = s') (hw : w = w') (hb : b = b') : cell s w b = cell s' w' b' := by
  rw [hs, hw, hb]

/-- Column k of the block, cut out as a 2048 × 1 array and repeated along the features, at (r, d): entry (r, k). -/
theorem column_at (x0 : Vec F S2048x16 .f32) (o : Nat) (k : Fin 16) (hk : k.val = o)
    (hs : S2048x16.Slices ![0, o] S2048x1) (hb : S2048x1.Broadcasts S2048x128) (r : Fin 2048) (d : Fin 128) :
    broadcastTo S2048x128 (extractStridedSlice S2048x1 ![0, o] (k0_pay2 x0) hs) hb (ix2 r d) = x0 (ix2 r k) := by
  refine (ColumnBroadcast.broadcastTo_a1_ab_apply _ hb r d).trans ?_
  refine (slice2_axis1_apply o (k0_pay2 x0) hs r (0 : Fin 1) k (by rw [hk]; rfl)).trans ?_
  unfold k0_pay2
  exact congrFun (shapeCast_self x0 _) _

/-- A vector of 128 numbers read as one row and repeated along the rows, at (r, d): entry d. -/
theorem vector_at (w : Vec F S128 .f32) (hc : S128.ShapeCasts S1x128) (hb : S1x128.Broadcasts S2048x128)
    (r : Fin 2048) (d : Fin 128) :
    broadcastTo S2048x128 (shapeCast S1x128 w hc) hb (ix2 r d) = w (ix1 d) := by
  refine (broadcastTo_1b_ab_apply _ hb r d).trans ?_
  exact shapeCast_a_1a_apply w hc (0 : Fin 1) d

/-- The stack layer of the block at (r, d). -/
theorem stack_at (x0 : Vec F S2048x16 .f32) (x1 x2 : Vec F S128 .f32) (r : Fin 2048) (d : Fin 128) :
    k0_pay4 x0 x1 x2 (ix2 r d) = cell (x0 (ix2 r (0 : Fin 16))) (x1 (ix1 d)) (x2 (ix1 d)) := by
  unfold k0_pay4
  exact cell_congr (column_at x0 0 0 rfl _ _ r d) (vector_at x1 _ _ r d) (vector_at x2 _ _ r d)

/-- The call layer of the block at (r, d). -/
theorem call_at (x0 : Vec F S2048x16 .f32) (x3 x4 : Vec F S128 .f32) (r : Fin 2048) (d : Fin 128) :
    k0_pay5 x0 x3 x4 (ix2 r d) = cell (x0 (ix2 r (5 : Fin 16))) (x3 (ix1 d)) (x4 (ix1 d)) := by
  unfold k0_pay5
  exact cell_congr (column_at x0 5 5 rfl _ _ r d) (vector_at x3 _ _ r d) (vector_at x4 _ _ r d)

/-- The odds layer of the block at (r, d). -/
theorem odds_at (x0 : Vec F S2048x16 .f32) (x5 x6 : Vec F S128 .f32) (r : Fin 2048) (d : Fin 128) :
    k0_pay6 x0 x5 x6 (ix2 r d) = cell (x0 (ix2 r (6 : Fin 16))) (x5 (ix1 d)) (x6 (ix1 d)) := by
  unfold k0_pay6 k0_pay3
  exact cell_congr (column_at x0 6 6 rfl _ _ r d) (vector_at x5 _ _ r d) (vector_at x6 _ _ r d)

/-- The pot layer's product at (r, d). -/
theorem pot_product_at (x0 : Vec F S2048x16 .f32) (x7 : Vec F S128 .f32) (r : Fin 2048) (d : Fin 128) :
    k0_pay7 x0 x7 (ix2 r d) = FloatOps.mulf (x0 (ix2 r (6 : Fin 16))) (x7 (ix1 d)) := by
  unfold k0_pay7 k0_pay3
  exact congr (congrArg FloatOps.mulf (column_at x0 6 6 rfl _ _ r d)) (vector_at x7 _ _ r d)

/-- The pot layer's repeated bias at (r, d). -/
theorem pot_bias_at (x8 : Vec F S128 .f32) (r : Fin 2048) (d : Fin 128) : k0_pay8 x8 (ix2 r d) = x8 (ix1 d) := by
  unfold k0_pay8
  exact vector_at x8 _ _ r d

/-- Channel c with c % 4 = 0 of row r of what the body stores: the pot layer, whose sum and maximum are taken here, at feature c / 4. -/
theorem store_at_0 (v27 v34 v41 v44 v45 : FVec F S2048x128 .f32) (r : Fin 2048) (ch : Fin 512) (hd : ch.val / 4 < 128)
    (h : ch.val % 4 = 0) :
    k0_pay1 v27 v34 v41 v44 v45 (ix2 r ch) = FloatOps.maximumf (FloatOps.addf (v44 (ix2 r (⟨ch.val / 4, hd⟩ : Fin 128))) (v45 (ix2 r (⟨ch.val / 4, hd⟩ : Fin 128)))) (FloatOps.ofBits .f32 0x00000000#32) := by
  have hc := ch.isLt
  unfold k0_pay1
  refine (shapeCast_apply _ _ (ix2 r ch) (ix3 r (⟨ch.val / 4, hd⟩ : Fin 128) (⟨0, by omega⟩ : Fin 4)) ?_).trans ?_
  · rw [Shape.rowMajor_val_two, Shape.rowMajor_val_three]
    show (r.val * 128 + ch.val / 4) * 4 + 0 = r.val * 512 + ch.val
    omega
  refine (concatenate_apply_piece _ _ _ (ix3 r (⟨ch.val / 4, hd⟩ : Fin 128) (⟨0, by omega⟩ : Fin 4)) 0 ?_ S2048x128x1
    _ rfl rfl 0 rfl (ix3 r (⟨ch.val / 4, hd⟩ : Fin 128) (0 : Fin 1)) ?_ ?_).trans ?_
  · show (0 : Nat) < 4; omega
  · intro p hp
    match p with
    | ⟨0, _⟩ => rfl
    | ⟨1, _⟩ => rfl
    | ⟨2, _⟩ => exact absurd rfl hp
  · rfl
  refine (shapeCast_apply _ _ (ix3 r (⟨ch.val / 4, hd⟩ : Fin 128) (0 : Fin 1)) (ix2 r (⟨ch.val / 4, hd⟩ : Fin 128)) ?_).trans ?_
  · rw [Shape.rowMajor_val_two, Shape.rowMajor_val_three]
    show r.val * 128 + ch.val / 4 = (r.val * 128 + ch.val / 4) * 1 + 0
    omega
  rfl

/-- Channel c with c % 4 = 1 of row r of what the body stores: the second operand of the join at feature c / 4. -/
theorem store_at_1 (v27 v34 v41 v44 v45 : FVec F S2048x128 .f32) (r : Fin 2048) (ch : Fin 512) (hd : ch.val / 4 < 128)
    (h : ch.val % 4 = 1) :
    k0_pay1 v27 v34 v41 v44 v45 (ix2 r ch) = v34 (ix2 r (⟨ch.val / 4, hd⟩ : Fin 128)) := by
  have hc := ch.isLt
  unfold k0_pay1
  refine (shapeCast_apply _ _ (ix2 r ch) (ix3 r (⟨ch.val / 4, hd⟩ : Fin 128) (⟨1, by omega⟩ : Fin 4)) ?_).trans ?_
  · rw [Shape.rowMajor_val_two, Shape.rowMajor_val_three]
    show (r.val * 128 + ch.val / 4) * 4 + 1 = r.val * 512 + ch.val
    omega
  refine (concatenate_apply_piece _ _ _ (ix3 r (⟨ch.val / 4, hd⟩ : Fin 128) (⟨1, by omega⟩ : Fin 4)) 1 ?_ S2048x128x1
    _ rfl rfl 1 rfl (ix3 r (⟨ch.val / 4, hd⟩ : Fin 128) (0 : Fin 1)) ?_ ?_).trans ?_
  · show (1 : Nat) < 4; omega
  · intro p hp
    match p with
    | ⟨0, _⟩ => rfl
    | ⟨1, _⟩ => rfl
    | ⟨2, _⟩ => exact absurd rfl hp
  · rfl
  refine (shapeCast_apply _ _ (ix3 r (⟨ch.val / 4, hd⟩ : Fin 128) (0 : Fin 1)) (ix2 r (⟨ch.val / 4, hd⟩ : Fin 128)) ?_).trans ?_
  · rw [Shape.rowMajor_val_two, Shape.rowMajor_val_three]
    show r.val * 128 + ch.val / 4 = (r.val * 128 + ch.val / 4) * 1 + 0
    omega
  rfl

/-- Channel c with c % 4 = 2 of row r of what the body stores: the third operand of the join at feature c / 4. -/
theorem store_at_2 (v27 v34 v41 v44 v45 : FVec F S2048x128 .f32) (r : Fin 2048) (ch : Fin 512) (hd : ch.val / 4 < 128)
    (h : ch.val % 4 = 2) :
    k0_pay1 v27 v34 v41 v44 v45 (ix2 r ch) = v27 (ix2 r (⟨ch.val / 4, hd⟩ : Fin 128)) := by
  have hc := ch.isLt
  unfold k0_pay1
  refine (shapeCast_apply _ _ (ix2 r ch) (ix3 r (⟨ch.val / 4, hd⟩ : Fin 128) (⟨2, by omega⟩ : Fin 4)) ?_).trans ?_
  · rw [Shape.rowMajor_val_two, Shape.rowMajor_val_three]
    show (r.val * 128 + ch.val / 4) * 4 + 2 = r.val * 512 + ch.val
    omega
  refine (concatenate_apply_piece _ _ _ (ix3 r (⟨ch.val / 4, hd⟩ : Fin 128) (⟨2, by omega⟩ : Fin 4)) 2 ?_ S2048x128x1
    _ rfl rfl 2 rfl (ix3 r (⟨ch.val / 4, hd⟩ : Fin 128) (0 : Fin 1)) ?_ ?_).trans ?_
  · show (2 : Nat) < 4; omega
  · intro p hp
    match p with
    | ⟨0, _⟩ => rfl
    | ⟨1, _⟩ => rfl
    | ⟨2, _⟩ => exact absurd rfl hp
  · rfl
  refine (shapeCast_apply _ _ (ix3 r (⟨ch.val / 4, hd⟩ : Fin 128) (0 : Fin 1)) (ix2 r (⟨ch.val / 4, hd⟩ : Fin 128)) ?_).trans ?_
  · rw [Shape.rowMajor_val_two, Shape.rowMajor_val_three]
    show r.val * 128 + ch.val / 4 = (r.val * 128 + ch.val / 4) * 1 + 0
    omega
  rfl

/-- Channel c with c % 4 = 3 of row r of what the body stores: the fourth operand of the join at feature c / 4. -/
theorem store_at_3 (v27 v34 v41 v44 v45 : FVec F S2048x128 .f32) (r : Fin 2048) (ch : Fin 512) (hd : ch.val / 4 < 128)
    (h : ch.val % 4 = 3) :
    k0_pay1 v27 v34 v41 v44 v45 (ix2 r ch) = v41 (ix2 r (⟨ch.val / 4, hd⟩ : Fin 128)) := by
  have hc := ch.isLt
  unfold k0_pay1
  refine (shapeCast_apply _ _ (ix2 r ch) (ix3 r (⟨ch.val / 4, hd⟩ : Fin 128) (⟨3, by omega⟩ : Fin 4)) ?_).trans ?_
  · rw [Shape.rowMajor_val_two, Shape.rowMajor_val_three]
    show (r.val * 128 + ch.val / 4) * 4 + 3 = r.val * 512 + ch.val
    omega
  refine (concatenate_apply_piece _ _ _ (ix3 r (⟨ch.val / 4, hd⟩ : Fin 128) (⟨3, by omega⟩ : Fin 4)) 3 ?_ S2048x128x1
    _ rfl rfl 3 rfl (ix3 r (⟨ch.val / 4, hd⟩ : Fin 128) (0 : Fin 1)) ?_ ?_).trans ?_
  · show (3 : Nat) < 4; omega
  · intro p hp
    match p with
    | ⟨0, _⟩ => rfl
    | ⟨1, _⟩ => rfl
    | ⟨2, _⟩ => exact absurd rfl hp
  · rfl
  refine (shapeCast_apply _ _ (ix3 r (⟨ch.val / 4, hd⟩ : Fin 128) (0 : Fin 1)) (ix2 r (⟨ch.val / 4, hd⟩ : Fin 128)) ?_).trans ?_
  · rw [Shape.rowMajor_val_two, Shape.rowMajor_val_three]
    show r.val * 128 + ch.val / 4 = (r.val * 128 + ch.val / 4) * 1 + 0
    omega
  rfl

/-- What the body stores, as one function of the blocks it loaded: the interleaved layers of the block's rows. -/
theorem payload_eq (x0 : Vec F S2048x16 .f32) (x1 x2 x3 x4 x5 x6 x7 x8 : Vec F S128 .f32) :
    k0_pay1 (k0_pay4 x0 x1 x2) (k0_pay5 x0 x3 x4) (k0_pay6 x0 x5 x6) (k0_pay7 x0 x7) (k0_pay8 x8)
      = rows (N := 2048) x0 ⟨x1, x2, x3, x4, x5, x6, x7, x8⟩ := by
  funext j
  obtain ⟨r, ch, rfl⟩ : ∃ (r : Fin 2048) (ch : Fin 512), j = ix2 r ch := ⟨j 0, j 1, eq_ix2 j⟩
  have hc := ch.isLt
  have hd : ch.val / 4 < 128 := by omega
  rw [rows_ix2]
  unfold channel
  have h4 : ch.val % 4 = 0 ∨ ch.val % 4 = 1 ∨ ch.val % 4 = 2 ∨ ch.val % 4 = 3 := by omega
  rcases h4 with h | h | h | h
  · rw [store_at_0 _ _ _ _ _ r ch hd h, h, pot_product_at, pot_bias_at]
    rfl
  · rw [store_at_1 _ _ _ _ _ r ch hd h, h, call_at]
    rfl
  · rw [store_at_2 _ _ _ _ _ r ch hd h, h, stack_at]
    rfl
  · rw [store_at_3 _ _ _ _ _ r ch hd h, h, odds_at]
    rfl

end Cert.KernelValue

end
-- ==== Proof.Blocks.lean ====
import proofs.«182191_j30786325577969_1_alg».proof.Proof.Gen.KernelIdeal.Frame
import proofs.«182191_j30786325577969_1_alg».proof.Proof.Payload

set_option maxRecDepth 16384

/-! # From the blocks to the whole table

The kernel runs over 128 grid points. Point t reads rows 2048 t … 2048 t + 2047 of the table of 262144 input rows and
the eight weight and bias vectors whole, and writes rows 2048 t … 2048 t + 2047 of the table of 262144 output rows.
What it writes is the interleaved layers of the rows it read (the payload, as one function of the loaded blocks), and
the map acts on each row by itself, so the block it writes is the block of the mapped table. The 128 blocks of 2048
rows tile the 262144 rows: row n lies in block n / 2048. Hence the output table ends as the mapped input table. -/

noncomputable section

namespace Cert.KernelValue

open Cert.KernelIdeal Cert.KernelIdeal.Gen Cert.Interleave Idealize.ShloMosaic Idealize.ShloMosaic.TcCoe
open Idealize.ShloMosaic.ValueIdx Idealize.SL.Sem
open Idealize.ShloMosaic.Pipeline (Dat)

variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a <;> rfl

/-- What one grid point leaves in the output's staging buffer: the interleaved layers of the 2048 rows it loaded. -/
theorem out_eq (x0 : Vec F S2048x16 .f32) (x1 x2 x3 x4 x5 x6 x7 x8 : Vec F S128 .f32) :
    out0_9 x0 x1 x2 x3 x4 x5 x6 x7 x8 = rows (N := 2048) x0 ⟨x1, x2, x3, x4, x5, x6, x7, x8⟩ := by
  unfold out0_9
  rw [View.canon_unit_zero zeros2]
  simp only [View.ld_unit_zero (S := S2048x16) zeros2, View.ld_unit_zero (S := S128) zeros1]
  exact payload_eq x0 x1 x2 x3 x4 x5 x6 x7 x8

/-- The index maps, decided over the 128 points: the input and the output table move one block of rows per point
    and never along the columns; every vector's block is block 0. -/
theorem idx_facts : ∀ t : Fin cfg0.N, win0_9.index t (0 : Fin 2) = t.val ∧ win0_9.index t (1 : Fin 2) = 0
    ∧ win0_0.index t (0 : Fin 2) = t.val ∧ win0_0.index t (1 : Fin 2) = 0
    ∧ win0_1.index t (0 : Fin 1) = 0 ∧ win0_2.index t (0 : Fin 1) = 0 ∧ win0_3.index t (0 : Fin 1) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0 :=
  (by decide +kernel : ∀ t : Fin grid0.N, _)

variable (m : (ℓ : Loc nD τ sig) → Buf (Elt F) ℓ)

/-- Window 1 stages one whole vector of 128 numbers at every point: its block is the vector. -/
theorem iblk_1 (c : Dev nD) (t : Fin cfg0.N) (y : S128.Idx) : iblk m c 1 t y = V m c main_arg1 y := by
  show V m c main_arg1 (((cfg0.win 1).blk t).view.emb y) = V m c main_arg1 y
  refine congrArg (V m c main_arg1) (funext fun a => Fin.ext ?_)
  match a with
  | ⟨0, _⟩ =>
    show win0_1.index t (0 : Fin 1) * 128 + 1 * (y 0).val = (y 0).val
    rw [(idx_facts t).2.2.2.2.1]
    omega

/-- Window 2 stages one whole vector of 128 numbers at every point: its block is the vector. -/
theorem iblk_2 (c : Dev nD) (t : Fin cfg0.N) (y : S128.Idx) : iblk m c 2 t y = V m c main_arg2 y := by
  show V m c main_arg2 (((cfg0.win 2).blk t).view.emb y) = V m c main_arg2 y
  refine congrArg (V m c main_arg2) (funext fun a => Fin.ext ?_)
  match a with
  | ⟨0, _⟩ =>
    show win0_2.index t (0 : Fin 1) * 128 + 1 * (y 0).val = (y 0).val
    rw [(idx_facts t).2.2.2.2.2.1]
    omega

/-- Window 3 stages one whole vector of 128 numbers at every point: its block is the vector. -/
theorem iblk_3 (c : Dev nD) (t : Fin cfg0.N) (y : S128.Idx) : iblk m c 3 t y = V m c main_arg3 y := by
  show V m c main_arg3 (((cfg0.win 3).blk t).view.emb y) = V m c main_arg3 y
  refine congrArg (V m c main_arg3) (funext fun a => Fin.ext ?_)
  match a with
  | ⟨0, _⟩ =>
    show win0_3.index t (0 : Fin 1) * 128 + 1 * (y 0).val = (y 0).val
    rw [(idx_facts t).2.2.2.2.2.2.1]
    omega

/-- Window 4 stages one whole vector of 128 numbers at every point: its block is the vector. -/
theorem iblk_4 (c : Dev nD) (t : Fin cfg0.N) (y : S128.Idx) : iblk m c 4 t y = V m c main_arg4 y := by
  show V m c main_arg4 (((cfg0.win 4).blk t).view.emb y) = V m c main_arg4 y
  refine congrArg (V m c main_arg4) (funext fun a => Fin.ext ?_)
  match a with
  | ⟨0, _⟩ =>
    show win0_4.index t (0 : Fin 1) * 128 + 1 * (y 0).val = (y 0).val
    rw [(idx_facts t).2.2.2.2.2.2.2.1]
    omega

/-- Window 5 stages one whole vector of 128 numbers at every point: its block is the vector. -/
theorem iblk_5 (c : Dev nD) (t : Fin cfg0.N) (y : S128.Idx) : iblk m c 5 t y = V m c main_arg5 y := by
  show V m c main_arg5 (((cfg0.win 5).blk t).view.emb y) = V m c main_arg5 y
  refine congrArg (V m c main_arg5) (funext fun a => Fin.ext ?_)
  match a with
  | ⟨0, _⟩ =>
    show win0_5.index t (0 : Fin 1) * 128 + 1 * (y 0).val = (y 0).val
    rw [(idx_facts t).2.2.2.2.2.2.2.2.1]
    omega

/-- Window 6 stages one whole vector of 128 numbers at every point: its block is the vector. -/
theorem iblk_6 (c : Dev nD) (t : Fin cfg0.N) (y : S128.Idx) : iblk m c 6 t y = V m c main_arg6 y := by
  show V m c main_arg6 (((cfg0.win 6).blk t).view.emb y) = V m c main_arg6 y
  refine congrArg (V m c main_arg6) (funext fun a => Fin.ext ?_)
  match a with
  | ⟨0, _⟩ =>
    show win0_6.index t (0 : Fin 1) * 128 + 1 * (y 0).val = (y 0).val
    rw [(idx_facts t).2.2.2.2.2.2.2.2.2.1]
    omega

/-- Window 7 stages one whole vector of 128 numbers at every point: its block is the vector. -/
theorem iblk_7 (c : Dev nD) (t : Fin cfg0.N) (y : S128.Idx) : iblk m c 7 t y = V m c main_arg7 y := by
  show V m c main_arg7 (((cfg0.win 7).blk t).view.emb y) = V m c main_arg7 y
  refine congrArg (V m c main_arg7) (funext fun a => Fin.ext ?_)
  match a with
  | ⟨0, _⟩ =>
    show win0_7.index t (0 : Fin 1) * 128 + 1 * (y 0).val = (y 0).val
    rw [(idx_facts t).2.2.2.2.2.2.2.2.2.2.1]
    omega

/-- Window 8 stages one whole vector of 128 numbers at every point: its block is the vector. -/
theorem iblk_8 (c : Dev nD) (t : Fin cfg0.N) (y : S128.Idx) : iblk m c 8 t y = V m c main_arg8 y := by
  show V m c main_arg8 (((cfg0.win 8).blk t).view.emb y) = V m c main_arg8 y
  refine congrArg (V m c main_arg8) (funext fun a => Fin.ext ?_)
  match a with
  | ⟨0, _⟩ =>
    show win0_8.index t (0 : Fin 1) * 128 + 1 * (y 0).val = (y 0).val
    rw [(idx_facts t).2.2.2.2.2.2.2.2.2.2.2]
    omega

/-- The weights and biases as the region finds them. -/
def layers (c : Dev nD) : Layers F :=
  ⟨V m c main_arg1, V m c main_arg2, V m c main_arg3, V m c main_arg4, V m c main_arg5, V m c main_arg6,
    V m c main_arg7, V m c main_arg8⟩

/-- Row y of point t's input block is row 2048 t + y of the table of input rows, column by column. -/
theorem iblk_0 (c : Dev nD) (t : Fin cfg0.N) (y : S2048x16.Idx) (i : S262144x16.Idx)
    (h0 : (i 0).val = t.val * 2048 + (y 0).val) (h1 : (i 1).val = (y 1).val) :
    iblk m c 0 t y = V m c main_v0 i := by
  show V m c main_v0 (((cfg0.win 0).blk t).view.emb y) = V m c main_v0 i
  refine congrArg (V m c main_v0) (funext fun a => Fin.ext ?_)
  match a with
  | ⟨0, _⟩ =>
    show win0_0.index t (0 : Fin 2) * 2048 + 1 * (y 0).val = (i 0).val
    rw [(idx_facts t).2.2.1, h0]; omega
  | ⟨1, _⟩ =>
    show win0_0.index t (1 : Fin 2) * 16 + 1 * (y 1).val = (i 1).val
    rw [(idx_facts t).2.2.2.1, h1]; omega

/-- WHAT POINT t WRITES BACK is block t of the mapped table of input rows. -/
theorem flushed_eq (c : Dev nD) (t : Fin cfg0.N) :
    (dats m 0 c).flushed 9 t
      = ((cfg0.win 9).blk t).view.read (Elt F) (rows (N := 262144) (V m c main_v0) (layers m c)) := by
  show (cfg0.win 9).cut (grid0.coords t) ((dats m 0 c).after 9 t) = _
  rw [after0_9, out_eq]
  have hL : (⟨iblk m c 1 t, iblk m c 2 t, iblk m c 3 t, iblk m c 4 t, iblk m c 5 t, iblk m c 6 t, iblk m c 7 t,
      iblk m c 8 t⟩ : Layers F) = layers m c := by
    unfold layers
    rw [show iblk m c 1 t = V m c main_arg1 from funext (iblk_1 m c t),
      show iblk m c 2 t = V m c main_arg2 from funext (iblk_2 m c t),
      show iblk m c 3 t = V m c main_arg3 from funext (iblk_3 m c t),
      show iblk m c 4 t = V m c main_arg4 from funext (iblk_4 m c t),
      show iblk m c 5 t = V m c main_arg5 from funext (iblk_5 m c t),
      show iblk m c 6 t = V m c main_arg6 from funext (iblk_6 m c t),
      show iblk m c 7 t = V m c main_arg7 from funext (iblk_7 m c t),
      show iblk m c 8 t = V m c main_arg8 from funext (iblk_8 m c t)]
  rw [hL]
  obtain ⟨f0, f1, -⟩ := idx_facts t
  funext j
  show rows (N := 2048) (iblk m c 0 t) (layers m c) j
    = rows (N := 262144) (V m c main_v0) (layers m c) (((cfg0.win 9).blk t).view.emb j)
  refine rows_congr _ _ _ j (((cfg0.win 9).blk t).view.emb j) (fun col => iblk_0 m c t _ _ ?_ rfl) ?_
  · show win0_9.index t (0 : Fin 2) * 2048 + 1 * (j 0).val = t.val * 2048 + (j 0).val
    rw [f0]; omega
  · show (j 1).val = win0_9.index t (1 : Fin 2) * 512 + 1 * (j 1).val
    rw [f1]; omega

/-- An index of the output table is in point t's block iff each coordinate is in the block's range on its axis. -/
theorem mem_blk (t : Fin cfg0.N) (i : S262144x512.Idx) :
    i ∈ ((cfg0.win 9).blk t).view.set ↔ ∀ a : Fin 2, win0_9.index t a * S2048x512.size a ≤ (i a).val
      ∧ (i a).val < win0_9.index t a * S2048x512.size a + S2048x512.size a := by
  show i ∈ ((View.whole main_v1).slice (win0_9.rect t)).set ↔ _
  rw [View.set_slice_whole, Rect.mem_set_unit]
  exact Iff.rfl

/-- The blocks tile the output table: row n is in the block of point n / 2048. -/
theorem cover (i : S262144x512.Idx) :
    ∃ t : Fin cfg0.N, (cfg0.win 9).flush t = true ∧ i ∈ ((cfg0.win 9).blk t).view.set := by
  have h0 : (i 0).val < 262144 := (i 0).isLt
  have h1 : (i 1).val < 512 := (i 1).isLt
  have hN : grid0.N = 128 := N_0
  have ht : (i 0).val / 2048 < grid0.N := by omega
  refine ⟨⟨(i 0).val / 2048, ht⟩, flush0_9 _, ?_⟩
  rw [mem_blk]
  obtain ⟨f0, f1, -⟩ := idx_facts ⟨(i 0).val / 2048, ht⟩
  intro a
  match a with
  | ⟨0, _⟩ =>
    show win0_9.index ⟨(i 0).val / 2048, ht⟩ (0 : Fin 2) * 2048 ≤ (i 0).val
      ∧ (i 0).val < win0_9.index ⟨(i 0).val / 2048, ht⟩ (0 : Fin 2) * 2048 + 2048
    rw [f0]
    show (i 0).val / 2048 * 2048 ≤ (i 0).val ∧ (i 0).val < (i 0).val / 2048 * 2048 + 2048
    omega
  | ⟨1, _⟩ =>
    show win0_9.index ⟨(i 0).val / 2048, ht⟩ (1 : Fin 2) * 512 ≤ (i 1).val
      ∧ (i 1).val < win0_9.index ⟨(i 0).val / 2048, ht⟩ (1 : Fin 2) * 512 + 512
    rw [f1]
    omega

/-- THE OUTPUT TABLE after the region: the mapped table of input rows. -/
theorem final (c : Dev nD) :
    (dats m 0 c).arrAt 9 cfg0.N = rows (N := 262144) (V m c main_v0) (layers m c) :=
  (dats m 0 c).arrAt_eq_of_cover 9 _ (fun t _ => flushed_eq m c t) cover

end Cert.KernelValue

end
-- ==== Proof.KernelRun.lean ====
import proofs.«182191_j30786325577969_1_alg».proof.Proof.Gen.KernelIdeal.Frame
import proofs.«182191_j30786325577969_1_alg».proof.Proof.Blocks
import Idealize.ShloMosaic.Lib.StableHlo.Run

set_option maxRecDepth 16384

/-! # The kernel's program computes the interleaved layers of the batch

Around the grid the program does two things on the host. Before it, the batch of 64 tables of 4096 rows is flattened
into one table of 262144 rows: that is the table of input rows the grid points read their blocks from. After it, the
table of 262144 output rows is read as a batch of 64 × 4096 rows again. Since the map acts on each row by itself,
flattening, mapping the rows and unflattening is mapping the batch. The weight and bias vectors reach the grid as
launched, and nothing writes an argument. -/

noncomputable section

namespace Cert.KernelValue

open Cert.KernelIdeal Cert.KernelIdeal.Gen Cert.Interleave Idealize.ShloMosaic Idealize.ShloMosaic.TcCoe
open Idealize.ShloMosaic.ValueIdx Idealize.SL.Sem
open Idealize.ShloMosaic.Pipeline (Dat)

variable {F : FTy → Type} [FloatOps F] (m : (ℓ : Loc nD τ sig) → Buf (Elt F) ℓ)

/-- The region finds, as its table of input rows, the batch flattened: row b · 4096 + r is row r of table b. -/
theorem V_main_v0 (c : Dev nD) :
    V m c main_v0 = shapeCast S262144x16 (m ((c : Thread nD τ).loc main_arg0)) Facts₀.shapeCasts_S64x4096x16_S262144x16 := by
  show StableHlo.after hostOps0 (fun b => m (c, b)) (Proc.devRef .tc main_v0) = _
  after_results
  rfl

/-- The result is the table of output rows, as the grid leaves it, read as a batch again. -/
theorem tail_eq (c : Dev nD) :
    Pipeline.afterTail₀ cfgs (dats m) 0 (V0 m) [hostOps1] c main_v2
      = shapeCast S64x4096x512 ((dats m 0 c).arrAt 9 cfg0.N) Facts₀.shapeCasts_S262144x512_S64x4096x512 := by
  unfold Pipeline.afterTail₀
  show StableHlo.after hostOps1 _ (Proc.devRef .tc main_v2) = _
  after_results
  rw [show Pipeline.withArrays (cfgs 0).spec c (V0 m c) (fun w => (dats m 0 c).arrAt w (cfgs 0).N)
      (Proc.tc.devRef main_v1) = (dats m 0 c).arrAt 9 cfg0.N from
    Pipeline.withArrays_arr spec0 winFacts0.arr_inj c _ _ 9]
  rfl

/-- The weights and biases the region finds are the launched ones. -/
theorem layers_eq (c : Dev nD) :
    layers m c = ⟨m ((c : Thread nD τ).loc main_arg1),
      m ((c : Thread nD τ).loc main_arg2),
      m ((c : Thread nD τ).loc main_arg3),
      m ((c : Thread nD τ).loc main_arg4),
      m ((c : Thread nD τ).loc main_arg5),
      m ((c : Thread nD τ).loc main_arg6),
      m ((c : Thread nD τ).loc main_arg7),
      m ((c : Thread nD τ).loc main_arg8)⟩ := by
  unfold layers
  rw [V_main_arg1 m c, V_main_arg2 m c, V_main_arg3 m c, V_main_arg4 m c, V_main_arg5 m c, V_main_arg6 m c,
    V_main_arg7 m c, V_main_arg8 m c]

/-- THE RESULT: the batch map of the launched arrays. -/
theorem result_eq (c : Dev nD) :
    Pipeline.afterTail₀ cfgs (dats m) 0 (V0 m) [hostOps1] c main_v2
      = batch (m ((c : Thread nD τ).loc main_arg0)) ⟨m ((c : Thread nD τ).loc main_arg1),
          m ((c : Thread nD τ).loc main_arg2),
          m ((c : Thread nD τ).loc main_arg3),
          m ((c : Thread nD τ).loc main_arg4),
          m ((c : Thread nD τ).loc main_arg5),
          m ((c : Thread nD τ).loc main_arg6),
          m ((c : Thread nD τ).loc main_arg7),
          m ((c : Thread nD τ).loc main_arg8)⟩ := by
  rw [tail_eq, final, V_main_v0, layers_eq]
  exact batch_eq_rows _ _ _ _

/-- Every weakly fair execution of the kernel's program terminates with the result at the batch map of the launched
    arrays and the arguments unchanged (the frame run, its result and its arguments read). -/
theorem run (ρ : Dev nD → PrngReg) :
    θ_run defs (onTc (τ := τ) (main (F := F))) ⟨m, fun _ => 0, ρ⟩ fun r => ∀ c : Dev nD,
      r.2.mem ((c.tc : Thread nD τ).loc main_v2)
        = batch (m ((c : Thread nD τ).loc main_arg0)) ⟨m ((c : Thread nD τ).loc main_arg1),
            m ((c : Thread nD τ).loc main_arg2),
            m ((c : Thread nD τ).loc main_arg3),
            m ((c : Thread nD τ).loc main_arg4),
            m ((c : Thread nD τ).loc main_arg5),
            m ((c : Thread nD τ).loc main_arg6),
            m ((c : Thread nD τ).loc main_arg7),
            m ((c : Thread nD τ).loc main_arg8)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩) (run_main m ρ)

end Cert.KernelValue

end
-- ==== Proof.lean ====
/- The kernel and its reference compute one function of the nine argument arrays, and they compute it by the same
   arithmetic: for each of 64 × 4096 input rows of sixteen numbers, four linear layers with one input and 128 outputs,
   each followed by the rectifier, on columns 6, 5, 0 and 6 of the row, interleaved feature by feature, so that channel
   4 d + j of the row's 512 results is max (x · w d + b d) 0 for the input entry x, the weights w and the biases b of
   layer j (Proof/Spec.lean). The two programs differ only in layout. The reference works on the whole batch with
   broadcasts, joins the four results along a new last axis and flattens it (Proof/Reference.lean). The kernel's
   program flattens the batch into 262144 rows, cuts them into 128 blocks of 2048 rows, computes each block's
   channels with column and row broadcasts, the same join and the same flattening (Proof/Payload.lean), writes the
   blocks back side by side (Proof/Blocks.lean) and reads the 262144 result rows as a batch again
   (Proof/KernelRun.lean). No law of the arithmetic is used, so no finiteness of the inputs is used either: each
   result entry is literally the same expression of one input entry, one weight and one bias on both sides, and the
   equality holds at the extended reals as it would under any reading of the float operations.

   The kernel's two frames are the generated frame certificates; the reference's frame is its generated run with the
   result forgotten; the idealization rewrote nothing, so that conjunct is trivial; and the two idealized programs,
   run from memories that agree on the arguments, both end with the batch map of those arguments. -/
import proofs.«182191_j30786325577969_1_alg».proof.Defs
import proofs.«182191_j30786325577969_1_alg».proof.Proof.Gen.Kernel
import proofs.«182191_j30786325577969_1_alg».proof.Proof.Gen.Kernel.Skeleton
import proofs.«182191_j30786325577969_1_alg».proof.Proof.Gen.Kernel.Launch
import proofs.«182191_j30786325577969_1_alg».proof.Proof.Gen.Kernel.Points
import proofs.«182191_j30786325577969_1_alg».proof.Proof.Gen.Kernel.Frame
import proofs.«182191_j30786325577969_1_alg».proof.Proof.Gen.KernelIdeal
import proofs.«182191_j30786325577969_1_alg».proof.Proof.Gen.KernelIdeal.Skeleton
import proofs.«182191_j30786325577969_1_alg».proof.Proof.Gen.KernelIdeal.Launch
import proofs.«182191_j30786325577969_1_alg».proof.Proof.Gen.KernelIdeal.Points
import proofs.«182191_j30786325577969_1_alg».proof.Proof.Gen.KernelIdeal.Frame
import proofs.«182191_j30786325577969_1_alg».proof.Proof.Gen.ReferenceIdeal
import proofs.«182191_j30786325577969_1_alg».proof.Proof.Gen.Pre_finite_inputs
import proofs.«182191_j30786325577969_1_alg».proof.Proof.Gen.ReferenceIdeal.Run
import proofs.«182191_j30786325577969_1_alg».proof.Proof.Gen.ReferenceIdeal.Read
import proofs.«182191_j30786325577969_1_alg».proof.Proof.Reference
import proofs.«182191_j30786325577969_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the batch map of the arguments: the kernel's program by its run read through
    the blocks, the reference by its run read operation by operation; the memories agree on the arguments. -/
theorem algebraic : Cert.algebraic_KernelIdeal_ReferenceIdeal := by
  intro m ρ m' ρ' _ hagree
  refine ⟨_, Cert.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.RefValue.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
